-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x1, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x1, .f32⟩
  | .hbm, ⟨74, _⟩ => ⟨S1700000x1, .f32⟩
  | .hbm, ⟨75, _⟩ => ⟨S1700000x1, .f32⟩
  | .hbm, ⟨76, _⟩ => ⟨S_, .f32⟩
  | .hbm, ⟨77, _⟩ => ⟨S100000x1, .f32⟩
  | .hbm, ⟨78, _⟩ => ⟨S1700000x1, .i32⟩
  | .hbm, ⟨79, _⟩ => ⟨S100000x1, .f32⟩
  | .hbm, ⟨80, _⟩ => ⟨S1x1, .f32⟩
  | .hbm, ⟨81, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x1, .f32⟩
  | 5 => ⟨S1, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1700000, .i32⟩
  | 71 => ⟨S1700000, .i32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S100000x1, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x1, .f32⟩
  | 115 => ⟨S1700000x1, .f32⟩
  | 116 => ⟨S1700000x1, .f32⟩
  | 117 => ⟨S_, .f32⟩
  | 118 => ⟨S100000x1, .f32⟩
  | 119 => ⟨S1700000x1, .i32⟩
  | 120 => ⟨S100000x1, .f32⟩
  | 121 => ⟨S1x1, .f32⟩
  | 122 => ⟨S100000x1, .f32⟩
  | 123 => ⟨S100000x1, .f32⟩
  | 124 => ⟨S100000x1, .f32⟩
  | 125 => ⟨S100000x1, .f32⟩
  | 126 => ⟨S_, .f32⟩
  | 127 => ⟨S100000x1, .f32⟩
  | _ => ⟨S100000x256, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel's run with its result named. The program is three pipelined regions among stretches of
  host operations; the contents of every TensorCore buffer at each boundary between them form a fold from the launch
  memory (a host stretch applies its operations, a region replaces its windows' arrays by what its write-backs
  leave), and the last stage of that fold, `Gen.W8`, is what every buffer holds when @main returns. The generated
  frame states this of the argument buffers only; here the same launch is read at the result buffer `main_v59` too:
  it ends at `Gen.W8 m ρ c main_v59`, the arguments as launched.
-/
import proofs.«113892_j85177791415007_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.HostStretch.lean ====
/-
  The host operations of the idealized kernel, stretch by stretch, as values.

  Between and before its three pipelined regions the kernel's @main runs the graph bookkeeping on the host: from the
  edge list `e` it builds the message sources and destinations (the edges followed by one self loop per node), the
  in-degree of every node as a scatter-add of ones, the inverse square root of the degree where it is positive, and
  the per-message weight (the product of that quantity at the source and at the destination); after the first region
  it gathers the rows of the product x·W1 at the sources, scales them and scatter-adds them at the destinations; after
  the second it does the same with the one-column product. The reference computes the very same operations, so each
  buffer a stretch writes is, as a whole array, the reference's stage of the same name: this module states that for
  ANY contents `W` of the buffers before the stretch, given what the stretch reads. (The reference recomputes the
  sources, destinations, degrees and weights for its second layer; `ref_*` below say those repeats are the first
  layer's arrays.)
-/
import proofs.«113892_j85177791415007_1_alg».proof.Proof.Gen.KernelIdeal.Launch
import proofs.«113892_j85177791415007_1_alg».proof.Proof.RefRead
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.ReferenceIdeal.Read

variable (W : Valuation τ sig (Elt Ideal))

/-! ## Before the first region: sources, destinations, degrees, weights -/

/-- The message sources: the edges' first row followed by every node once. -/
theorem a_v5 : StableHlo.after hostOps0 W (Proc.devRef .tc main_v5) = val_main_v5 (F := Ideal) (W (Proc.devRef .tc main_arg1)) := by
  dsimp only [hostOps0]; after_results; rfl
/-- The message destinations: the edges' second row followed by every node once. -/
theorem a_v6 : StableHlo.after hostOps0 W (Proc.devRef .tc main_v6) = val_main_v6 (F := Ideal) (W (Proc.devRef .tc main_arg1)) := by
  dsimp only [hostOps0]; after_results; rfl
/-- Where the in-degree (a scatter-add of ones at the destinations) is positive. -/
theorem a_v12 : StableHlo.after hostOps0 W (Proc.devRef .tc main_v12) = val_main_v12 (F := Ideal) (W (Proc.devRef .tc main_arg1)) := by
  dsimp only [hostOps0]; after_results; rfl
/-- The inverse square root of the in-degree. -/
theorem a_v13 : StableHlo.after hostOps0 W (Proc.devRef .tc main_v13) = val_main_v13 (F := Ideal) (W (Proc.devRef .tc main_arg1)) := by
  dsimp only [hostOps0]; after_results; rfl
/-- The zero that replaces it where the degree is not positive. -/
theorem a_cst2 : StableHlo.after hostOps0 W (Proc.devRef .tc main_cst_2) = val_main_cst_2 (F := Ideal) := by
  dsimp only [hostOps0]; after_results; rfl

variable (e : (⟨Cert.ReferenceIdeal.S2x1600000, .i32⟩ : BufTy).Contents (Elt Ideal))

/-- The selection, of whatever the three buffers it reads hold: the second where the first is set, the splat of the
    third elsewhere. -/
theorem b_v14_of (A : IVec S100000 1) (B : FVec Ideal S100000 .f32) (C : FVec Ideal S_ .f32)
    (h12 : W (Proc.devRef .tc main_v12) = A) (h13 : W (Proc.devRef .tc main_v13) = B)
    (hc : W (Proc.devRef .tc main_cst_2) = C) :
    StableHlo.after hostOps0_1 W (Proc.devRef .tc main_v14)
      = select A B (broadcastInDim S100000 ![] bcast_S_S100000 (id C)) := by
  subst h12 h13 hc
  dsimp only [hostOps0_1]; after_results; rfl

/-- The node factor: the inverse square root of the degree where the degree is positive, zero elsewhere. -/
theorem b_v14 (h12 : W (Proc.devRef .tc main_v12) = val_main_v12 (F := Ideal) e)
    (h13 : W (Proc.devRef .tc main_v13) = val_main_v13 (F := Ideal) e)
    (hc : W (Proc.devRef .tc main_cst_2) = val_main_cst_2 (F := Ideal)) :
    StableHlo.after hostOps0_1 W (Proc.devRef .tc main_v14) = val_main_v14 (F := Ideal) e :=
  (b_v14_of W _ _ _ h12 h13 hc).trans rfl

set_option maxHeartbeats 4000000 in
/-- The message weights: the node factor at the source times the node factor at the destination. -/
theorem c_v29 (h5 : W (Proc.devRef .tc main_v5) = val_main_v5 (F := Ideal) e)
    (h6 : W (Proc.devRef .tc main_v6) = val_main_v6 (F := Ideal) e)
    (h14 : W (Proc.devRef .tc main_v14) = val_main_v14 (F := Ideal) e) :
    StableHlo.after hostOps0_2 W (Proc.devRef .tc main_v29) = val_main_v29 (F := Ideal) e := by
  dsimp only [hostOps0_2]; after_results_simp; rw [h5, h6, h14]; rfl

/-! ## Between the first and the second region: the first layer's aggregation -/

variable (x0 : (⟨Cert.ReferenceIdeal.S100000x256, .f32⟩ : BufTy).Contents (Elt Ideal))
  (x2 : (⟨Cert.ReferenceIdeal.S256x128, .f32⟩ : BufTy).Contents (Elt Ideal))

set_option maxHeartbeats 4000000 in
/-- The rows of x·W1 gathered at the sources, scaled by the weights, scatter-added at the destinations. -/
theorem d_v43 (h30 : W (Proc.devRef .tc main_v30) = val_main_v30 (F := Ideal) x0 x2)
    (h29 : W (Proc.devRef .tc main_v29) = val_main_v29 (F := Ideal) e)
    (h5 : W (Proc.devRef .tc main_v5) = val_main_v5 (F := Ideal) e)
    (h6 : W (Proc.devRef .tc main_v6) = val_main_v6 (F := Ideal) e) :
    StableHlo.after hostOps1 W (Proc.devRef .tc main_v43) = val_main_v43 (F := Ideal) x0 e x2 := by
  dsimp only [hostOps1]; after_results_simp; rw [h30, h29, h5, h6]; rfl

/-- The first bias, re-laid as one row. -/
theorem d_v44 : StableHlo.after hostOps1 W (Proc.devRef .tc main_v44)
    = shapeCast S1x128 (W (Proc.devRef .tc main_arg3)) shapeCasts_S128_S1x128 := by
  dsimp only [hostOps1]; after_results; rfl

/-! ## The reference's second layer repeats the first layer's bookkeeping -/

theorem ref_v49 : val_main_v49 (F := Ideal) e = val_main_v5 (F := Ideal) e := rfl
theorem ref_v50 : val_main_v50 (F := Ideal) e = val_main_v6 (F := Ideal) e := rfl
theorem ref_v58 : val_main_v58 (F := Ideal) e = val_main_v14 (F := Ideal) e := by
  unfold val_main_v58 val_main_v14 val_main_v56 val_main_v12 val_main_v57 val_main_v13 val_main_v54 val_main_v10 val_main_v53 val_main_v9
  rw [ref_v50]; rfl
theorem ref_v73 : val_main_v73 (F := Ideal) e = val_main_v29 (F := Ideal) e := by
  unfold val_main_v73 val_main_v29 val_main_v65 val_main_v21 val_main_v72 val_main_v28 val_main_v64 val_main_v20 val_main_v71 val_main_v27
    val_main_v63 val_main_v19 val_main_v70 val_main_v26 val_main_v60 val_main_v16 val_main_v62 val_main_v18 val_main_v67 val_main_v23 val_main_v69 val_main_v25
  rw [ref_v58, ref_v49, ref_v50]; rfl

/-! ## Between the second and the third region: the second layer's aggregation -/

variable (x3 : (⟨Cert.ReferenceIdeal.S128, .f32⟩ : BufTy).Contents (Elt Ideal))
  (x4 : (⟨Cert.ReferenceIdeal.S128x1, .f32⟩ : BufTy).Contents (Elt Ideal))

set_option maxHeartbeats 4000000 in
/-- The one-column product gathered at the sources, scaled by the weights, scatter-added at the destinations. -/
theorem e_v57 (h45 : W (Proc.devRef .tc main_v45) = val_main_v74 (F := Ideal) x0 e x2 x3 x4)
    (h29 : W (Proc.devRef .tc main_v29) = val_main_v29 (F := Ideal) e)
    (h5 : W (Proc.devRef .tc main_v5) = val_main_v5 (F := Ideal) e)
    (h6 : W (Proc.devRef .tc main_v6) = val_main_v6 (F := Ideal) e) :
    StableHlo.after hostOps2 W (Proc.devRef .tc main_v57) = val_main_v86 (F := Ideal) x0 e x2 x3 x4 := by
  dsimp only [hostOps2]; after_results_simp; rw [h45, h29, h5, h6]
  unfold val_main_v86 val_main_v83 val_main_v81 val_main_v82 val_main_v85 val_main_v80 val_main_v79 val_main_v76 val_main_v78
  rw [ref_v73, ref_v49, ref_v50]; rfl

/-- The second bias, re-laid as a one-by-one array. -/
theorem e_v58 : StableHlo.after hostOps2 W (Proc.devRef .tc main_v58)
    = shapeCast S1x1 (W (Proc.devRef .tc main_arg5)) shapeCasts_S1_S1x1 := by
  dsimp only [hostOps2]; after_results; rfl

end Cert.KernelIdeal.HostValue

end
-- ==== Proof.Payloads.lean ====
/- The three payloads of the kernel bodies, read at an index, at the ideal values (extended reals; a
   narrowing of the format is the identity; a matrix product into the zero accumulator is the plain sum
   of products over the contracted axis). -/
import proofs.«113892_j85177791415007_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## The operand indices of the two matrix products

Both products contract the left operand's axis 1 with the right operand's axis 0 and have no batch axis: at
result index (r, c) and contraction position k the left operand is read at (r, k), the right at (k, c). -/

/-- Left operand, row axis: a free axis, so the left index carries the result's row. -/
theorem lhs0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Left operand, column axis: the one contracted axis, so the left index carries the contraction position. -/
theorem lhs0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- Right operand, row axis: the one contracted axis. -/
theorem rhs0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Right operand, column axis: a free axis, so the right index carries the result's column. -/
theorem rhs0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Left operand, row axis: a free axis, so the left index carries the result's row. -/
theorem lhs1_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- Left operand, column axis: the one contracted axis, so the left index carries the contraction position. -/
theorem lhs1_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- Right operand, row axis: the one contracted axis. -/
theorem rhs1_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- Right operand, column axis: a free axis, so the right index carries the result's column. -/
theorem rhs1_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## The payloads at an index -/

/-- [5000,256] × [256,128]: element (p, q) is Σ_k x0[p,k] · x1[k,q]. -/
theorem pay0_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply dot_S5000x256_S256x128_S5000x128_1_0_0_1_n_n none
    (truncf (F := Ideal) .bf16 x0 bitsLt_bf16_f32) (truncf (F := Ideal) .bf16 x1 bitsLt_bf16_f32) (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs0_0 _ _
    | ⟨1, _⟩ => exact (lhs0_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs0_0 _ _).trans hk
    | ⟨1, _⟩ => exact rhs0_1 _ _)
  rw [el, er]
  rfl

/-- relu(v0 + row v2) × v9, [5000,128] × [128,1]: element (p, z) is Σ_k max(v0[p,k] + v2[0,k], 0) · v9[k,z]. -/
theorem pay1_apply (v0 : Vec Ideal S5000x128 .f32) (v2 : Vec Ideal S1x128 .f32) (v9 : Vec Ideal S128x1 .f32) (p : Fin 5000) (z : Fin 1) :
    k1_pay1 (F := Ideal) v0 v2 v9 (ix2 p z) = ∑ k : Fin 128, max (v0 (ix2 p k) + v2 (ix2 0 k)) (Ideal.ofBits .f32 0x00000000#32) * v9 (ix2 k z) := by
  unfold k1_pay1
  refine (Ideal.matmul_constant_zero_apply dot_S5000x128_S128x1_S5000x1_1_0_0_1_n_n none _ _ (ix2 p z)).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p z) ((ValueIdx.contrEquiv1 dot_S5000x128_S128x1_S5000x1_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x1_S5000x1_1_0_0_1_n_n.rhsIdx (ix2 p z) ((ValueIdx.contrEquiv1 dot_S5000x128_S128x1_S5000x1_1_0_0_1_n_n 128 rfl rfl).symm k) = ix2 k z := funext fun a => Fin.ext (by
    match a with
    | ⟨0, _⟩ => exact (rhs1_0 _ _).trans hk
    | ⟨1, _⟩ => exact rhs1_1 _ _)
  rw [el, er]
  show max (shapeCast S5000x128 v0 shapeCasts_S5000x128_S5000x128 (ix2 p k)
      + broadcastTo S5000x128 (shapeCast S1x128 v2 shapeCasts_S1x128_S1x128) broadcasts_S1x128_S5000x128 (ix2 p k))
      (Ideal.ofBits .f32 0x00000000#32) * v9 (ix2 k z) = _
  rw [shapeCast_self, shapeCast_self]
  -- the row [1,128] broadcast to [5000,128]: at (p, k) it is the row at (0, k)
  rw [broadcastTo_apply v2 broadcasts_S1x128_S5000x128 (ix2 p k) (ix2 0 k) (fun a => match a with
    | ⟨0, _⟩ => rfl
    | ⟨1, _⟩ => rfl)]

/-- logistic(v0 + scalar v2): element (p, z) is logistic(v0[p,z] + v2[0,0]). -/
theorem pay2_apply (v0 : Vec Ideal S5000x1 .f32) (v2 : Vec Ideal S1x1 .f32) (p : Fin 5000) (z : Fin 1) :
    k2_pay1 (F := Ideal) v0 v2 (ix2 p z) = Ideal.logistic (v0 (ix2 p z) + v2 (ix2 0 0)) := by
  unfold k2_pay1
  show Ideal.logistic (shapeCast S5000x1 v0 shapeCasts_S5000x1_S5000x1 (ix2 p z)
      + broadcastTo S5000x1 (shapeCast S1x1 v2 shapeCasts_S1x1_S1x1) broadcasts_S1x1_S5000x1 (ix2 p z)) = _
  rw [shapeCast_self, shapeCast_self]
  -- the [1,1] value broadcast to [5000,1]: at every index it is the value at (0, 0)
  rw [broadcastTo_apply v2 broadcasts_S1x1_S5000x1 (ix2 p z) (ix2 0 0) (fun a => match a with
    | ⟨0, _⟩ => rfl
    | ⟨1, _⟩ => rfl)]

end Cert.KernelIdeal.Payload

end
-- ==== Proof.Regions.lean ====
/- The three pipelined regions' output arrays after all grid points, each as ONE whole-array function G of the
   region-entry contents V, at the ideal values. In each region the output's 20 blocks of 5000 rows tile its
   100000 rows, every block is written back, and what point t writes back is block t of G: the payload read at an
   index (the lemmas of the payload module) over the input blocks, each block entry being the array entry at
   (block index) · (block size) + (coordinate inside the block). -/
import proofs.«113892_j85177791415007_1_alg».proof.Proof.Gen.KernelIdeal.Frame
import proofs.«113892_j85177791415007_1_alg».proof.Proof.Payloads
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The whole-shape rectangle at zero offsets -/

theorem hz : (![0, 0] : Fin 2 → Nat) = fun _ => 0 := funext fun a => by fin_cases a <;> rfl

/-! ## Region 0: the [100000,256] × [256,128] product, 20 blocks of 5000 rows

At grid point t the left operand's block is rows [5000 t, 5000 t + 5000) of the [100000,256] array (block index
(t, 0)), the right operand's is the whole [256,128] array (block index (0, 0)), and the output's is rows
[5000 t, 5000 t + 5000) of the [100000,128] array (block index (t, 0)). A coordinate of the array under a block
coordinate is (block index) · (block size) + 1 · (coordinate inside the block). -/

/-- The block indices of the three windows at every grid point (decided over the 20 points). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of G: entry (p, q) of the block is the sum over k of the left block at (p, k)
    times the right array at (k, q), and the left block's row p is the array's row 5000 t + p, which is the row of G
    that entry lands on. -/
theorem flushed0 (c : Dev nD) (X0 : S100000x256.Idx → EReal) (X2 : S256x128.Idx → EReal)
    (h0 : (V c main_arg0 : S100000x256.Idx → EReal) = X0) (h2 : (V c main_arg2 : S256x128.Idx → EReal) = X2)
    (G : S100000x128.Idx → EReal)
    (hG : ∀ (r : Fin 100000) (q : Fin 128), G (ix2 r q) = ∑ k : Fin 256, X0 (ix2 r k) * X2 (ix2 k q))
    (t : Fin cfg0.N) :
    (dat0 (F := Ideal) V c).flushed 2 t = ((cfg0.win 2).blk t).view.read (Elt Ideal) G := by
  subst h0; subst h2
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e00, e01, e10, e11, e20, e21⟩ := idx0 t
  have ht : t.val < 20 := lt_of_lt_of_eq t.isLt N_0
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = G (((cfg0.win 2).blk t).view.emb (ix2 p q))
  refine (Payload.pay0_apply _ _ p q).trans ?_
  have hp : p.val < 5000 := p.isLt
  -- the array row under row p of block t
  obtain ⟨r, hr⟩ : ∃ r : Fin 100000, r.val = t.val * 5000 + p.val := ⟨⟨t.val * 5000 + p.val, by omega⟩, rfl⟩
  have E2 : ((cfg0.win 2).blk t).view.emb (ix2 p q) = ix2 r q := by
    funext a; apply Fin.ext
    match a with
    | ⟨0, _⟩ => show win0_2.index t (0 : Fin 2) * 5000 + 1 * p.val = r.val; rw [e20]; omega
    | ⟨1, _⟩ => show win0_2.index t (1 : Fin 2) * 128 + 1 * q.val = q.val; rw [e21]; omega
  have E0 : ∀ k : Fin 256, (iblk0 V c 0 t : S5000x256.Idx → EReal) (ix2 p k) = (V c main_arg0 : S100000x256.Idx → EReal) (ix2 r k) := fun k => by
    show V c main_arg0 (((cfg0.win 0).blk t).view.emb (ix2 p k)) = _
    refine congrArg _ ?_
    funext a; apply Fin.ext
    match a with
    | ⟨0, _⟩ => show win0_0.index t (0 : Fin 2) * 5000 + 1 * p.val = r.val; rw [e00]; omega
    | ⟨1, _⟩ => show win0_0.index t (1 : Fin 2) * 256 + 1 * k.val = k.val; rw [e01]; omega
  have E1 : ∀ k : Fin 256, (iblk0 V c 1 t : S256x128.Idx → EReal) (ix2 k q) = (V c main_arg2 : S256x128.Idx → EReal) (ix2 k q) := fun k => by
    show V c main_arg2 (((cfg0.win 1).blk t).view.emb (ix2 k q)) = _
    refine congrArg _ ?_
    funext a; apply Fin.ext
    match a with
    | ⟨0, _⟩ => show win0_1.index t (0 : Fin 2) * 256 + 1 * k.val = k.val; rw [e10]; omega
    | ⟨1, _⟩ => show win0_1.index t (1 : Fin 2) * 128 + 1 * q.val = q.val; rw [e11]; omega
  rw [E2, hG r q]
  exact Finset.sum_congr rfl fun k _ => by rw [E0 k, E1 k]

/-- An index of the output array is in the block of point t iff, on each axis, it lies in the block's range
    [index · size, index · size + size). -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 blocks of 5000 rows tile the 100000 rows: row ρ is in the block of point ⌊ρ / 5000⌋, which is written back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, lt_of_lt_of_eq (by omega : (i 0).val / 5000 < 20) N_0.symm⟩, rfl⟩
  obtain ⟨e00, e01, e10, e11, e20, e21⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e20]; omega
  | ⟨1, _⟩ => show win0_2.index t (1 : Fin 2) * 128 ≤ (i 1).val ∧ (i 1).val < win0_2.index t (1 : Fin 2) * 128 + 128; rw [e21]; omega

/-- After all 20 points the [100000,128] output array is G. -/
theorem array0 (c : Dev nD) (X0 : S100000x256.Idx → EReal) (X2 : S256x128.Idx → EReal)
    (h0 : (V c main_arg0 : S100000x256.Idx → EReal) = X0) (h2 : (V c main_arg2 : S256x128.Idx → EReal) = X2)
    (G : S100000x128.Idx → EReal)
    (hG : ∀ (r : Fin 100000) (q : Fin 128), G (ix2 r q) = ∑ k : Fin 256, X0 (ix2 r k) * X2 (ix2 k q)) :
    (dat0 (F := Ideal) V c).arrAt 2 cfg0.N = G :=
  (dat0 V c).arrAt_eq_of_cover 2 G (fun t _ => flushed0 V c X0 X2 h0 h2 G hG t) cover0

/-! ## Region 1: relu(A + row B) × Wt, [100000,128] × [128,1], 20 blocks of 5000 rows

At grid point t window 0's block is rows [5000 t, 5000 t + 5000) of the [100000,128] array (block index (t, 0)),
windows 1 and 2 are the whole [1,128] and [128,1] arrays (block index (0, 0)), and the output's block is rows
[5000 t, 5000 t + 5000) of the [100000,1] array (block index (t, 0)). -/

/-- The block indices of the four windows at every grid point (decided over the 20 points). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of G: entry (p, z) of the block depends on row p of window 0's block, which
    is the array's row 5000 t + p, on the whole row B and on the whole column Wt. -/
theorem flushed1 (c : Dev nD) (A : S100000x128.Idx → EReal) (B : S1x128.Idx → EReal) (Wt : S128x1.Idx → EReal)
    (hA : (V c main_v43 : S100000x128.Idx → EReal) = A) (hB : (V c main_v44 : S1x128.Idx → EReal) = B) (hW : (V c main_arg4 : S128x1.Idx → EReal) = Wt)
    (G : S100000x1.Idx → EReal)
    (hG : ∀ (r : Fin 100000) (z : Fin 1), G (ix2 r z) = ∑ k : Fin 128, max (A (ix2 r k) + B (ix2 0 k)) (Ideal.ofBits .f32 0x00000000#32) * Wt (ix2 k z))
    (t : Fin cfg1.N) :
    (dat1 (F := Ideal) V c).flushed 3 t = ((cfg1.win 3).blk t).view.read (Elt Ideal) G := by
  subst hA; subst hB; subst hW
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x1) hz]
  obtain ⟨e00, e01, e10, e11, e20, e21, e30, e31⟩ := idx1 t
  have ht : t.val < 20 := lt_of_lt_of_eq t.isLt N_1
  funext j
  obtain ⟨p, z, rfl⟩ : ∃ (p : Fin 5000) (z : Fin 1), j = ix2 p z := ⟨j 0, j 1, eq_ix2 j⟩
  show k1_pay1 (F := Ideal) (iblk1 V c 0 t) (iblk1 V c 1 t) (iblk1 V c 2 t) (ix2 p z) = G (((cfg1.win 3).blk t).view.emb (ix2 p z))
  refine (Payload.pay1_apply _ _ _ p z).trans ?_
  have hp : p.val < 5000 := p.isLt
  -- the array row under row p of block t
  obtain ⟨r, hr⟩ : ∃ r : Fin 100000, r.val = t.val * 5000 + p.val := ⟨⟨t.val * 5000 + p.val, by omega⟩, rfl⟩
  have E3 : ((cfg1.win 3).blk t).view.emb (ix2 p z) = ix2 r z := by
    funext a; apply Fin.ext
    match a with
    | ⟨0, _⟩ => show win1_3.index t (0 : Fin 2) * 5000 + 1 * p.val = r.val; rw [e30]; omega
    | ⟨1, _⟩ => show win1_3.index t (1 : Fin 2) * 1 + 1 * z.val = z.val; rw [e31]; omega
  have E0 : ∀ k : Fin 128, (iblk1 V c 0 t : S5000x128.Idx → EReal) (ix2 p k) = (V c main_v43 : S100000x128.Idx → EReal) (ix2 r k) := fun k => by
    show V c main_v43 (((cfg1.win 0).blk t).view.emb (ix2 p k)) = _
    refine congrArg _ ?_
    funext a; apply Fin.ext
    match a with
    | ⟨0, _⟩ => show win1_0.index t (0 : Fin 2) * 5000 + 1 * p.val = r.val; rw [e00]; omega
    | ⟨1, _⟩ => show win1_0.index t (1 : Fin 2) * 128 + 1 * k.val = k.val; rw [e01]; omega
  have E1 : ∀ k : Fin 128, (iblk1 V c 1 t : S1x128.Idx → EReal) (ix2 0 k) = (V c main_v44 : S1x128.Idx → EReal) (ix2 0 k) := fun k => by
    show V c main_v44 (((cfg1.win 1).blk t).view.emb (ix2 0 k)) = _
    refine congrArg _ ?_
    funext a; apply Fin.ext
    match a with
    | ⟨0, _⟩ => show win1_1.index t (0 : Fin 2) * 1 + 1 * 0 = 0; rw [e10]
    | ⟨1, _⟩ => show win1_1.index t (1 : Fin 2) * 128 + 1 * k.val = k.val; rw [e11]; omega
  have E2 : ∀ k : Fin 128, (iblk1 V c 2 t : S128x1.Idx → EReal) (ix2 k z) = (V c main_arg4 : S128x1.Idx → EReal) (ix2 k z) := fun k => by
    show V c main_arg4 (((cfg1.win 2).blk t).view.emb (ix2 k z)) = _
    refine congrArg _ ?_
    funext a; apply Fin.ext
    match a with
    | ⟨0, _⟩ => show win1_2.index t (0 : Fin 2) * 128 + 1 * k.val = k.val; rw [e20]; omega
    | ⟨1, _⟩ => show win1_2.index t (1 : Fin 2) * 1 + 1 * z.val = z.val; rw [e21]; omega
  rw [E3, hG r z]
  exact Finset.sum_congr rfl fun k _ => by rw [E0 k, E1 k, E2 k]

/-- An index of the output array is in the block of point t iff, on each axis, it lies in the block's range
    [index · size, index · size + size). -/
theorem mem_blk1 (t : Fin cfg1.N) (i : S100000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v45).slice (win1_3.rect t)).set ↔ _
  rw [View.set_slice_whole, Rect.mem_set_unit]
  exact Iff.rfl

/-- The 20 blocks of 5000 rows tile the 100000 rows: row ρ is in the block of point ⌊ρ / 5000⌋, which is written back. -/
theorem cover1 (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, htv⟩ : ∃ t : Fin cfg1.N, t.val = (i 0).val / 5000 :=
    ⟨⟨(i 0).val / 5000, lt_of_lt_of_eq (by omega : (i 0).val / 5000 < 20) N_1.symm⟩, rfl⟩
  obtain ⟨e00, e01, e10, e11, e20, e21, e30, e31⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e30]; omega
  | ⟨1, _⟩ => show win1_3.index t (1 : Fin 2) * 1 ≤ (i 1).val ∧ (i 1).val < win1_3.index t (1 : Fin 2) * 1 + 1; rw [e31]; omega

/-- After all 20 points the [100000,1] output array is G. -/
theorem array1 (c : Dev nD) (A : S100000x128.Idx → EReal) (B : S1x128.Idx → EReal) (Wt : S128x1.Idx → EReal)
    (hA : (V c main_v43 : S100000x128.Idx → EReal) = A) (hB : (V c main_v44 : S1x128.Idx → EReal) = B) (hW : (V c main_arg4 : S128x1.Idx → EReal) = Wt)
    (G : S100000x1.Idx → EReal)
    (hG : ∀ (r : Fin 100000) (z : Fin 1), G (ix2 r z) = ∑ k : Fin 128, max (A (ix2 r k) + B (ix2 0 k)) (Ideal.ofBits .f32 0x00000000#32) * Wt (ix2 k z)) :
    (dat1 (F := Ideal) V c).arrAt 3 cfg1.N = G :=
  (dat1 V c).arrAt_eq_of_cover 3 G (fun t _ => flushed1 V c A B Wt hA hB hW G hG t) cover1

/-! ## Region 2: logistic(A + scalar B), [100000,1], 20 blocks of 5000 rows

At grid point t window 0's block is rows [5000 t, 5000 t + 5000) of the [100000,1] array (block index (t, 0)),
window 1 is the whole [1,1] array (block index (0, 0)), and the output's block is rows [5000 t, 5000 t + 5000) of
the [100000,1] array (block index (t, 0)). -/

/-- The block indices of the three windows at every grid point (decided over the 20 points). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of G: entry (p, z) of the block depends on entry (p, z) of window 0's block,
    which is the array's entry (5000 t + p, z), and on the one entry of B. -/
theorem flushed2 (c : Dev nD) (A : S100000x1.Idx → EReal) (B : S1x1.Idx → EReal)
    (hA : (V c main_v57 : S100000x1.Idx → EReal) = A) (hB : (V c main_v58 : S1x1.Idx → EReal) = B)
    (G : S100000x1.Idx → EReal)
    (hG : ∀ (r : Fin 100000) (z : Fin 1), G (ix2 r z) = Ideal.logistic (A (ix2 r z) + B (ix2 0 0)))
    (t : Fin cfg2.N) :
    (dat2 (F := Ideal) V c).flushed 2 t = ((cfg2.win 2).blk t).view.read (Elt Ideal) G := by
  subst hA; subst hB
  show (cfg2.win 2).cut (grid2.coords t) ((dat2 V c).after 2 t) = _
  rw [after2_2]
  unfold out2_2
  rw [View.canon_unit_zero hz]
  simp only [View.ld_unit_zero (S := S5000x1) hz, View.ld_unit_zero (S := S1x1) hz]
  obtain ⟨e00, e01, e10, e11, e20, e21⟩ := idx2 t
  have ht : t.val < 20 := lt_of_lt_of_eq t.isLt N_2
  funext j
  obtain ⟨p, z, rfl⟩ : ∃ (p : Fin 5000) (z : Fin 1), j = ix2 p z := ⟨j 0, j 1, eq_ix2 j⟩
  show k2_pay1 (F := Ideal) (iblk2 V c 0 t) (iblk2 V c 1 t) (ix2 p z) = G (((cfg2.win 2).blk t).view.emb (ix2 p z))
  refine (Payload.pay2_apply _ _ p z).trans ?_
  have hp : p.val < 5000 := p.isLt
  -- the array row under row p of block t
  obtain ⟨r, hr⟩ : ∃ r : Fin 100000, r.val = t.val * 5000 + p.val := ⟨⟨t.val * 5000 + p.val, by omega⟩, rfl⟩
  have E2 : ((cfg2.win 2).blk t).view.emb (ix2 p z) = ix2 r z := by
    funext a; apply Fin.ext
    match a with
    | ⟨0, _⟩ => show win2_2.index t (0 : Fin 2) * 5000 + 1 * p.val = r.val; rw [e20]; omega
    | ⟨1, _⟩ => show win2_2.index t (1 : Fin 2) * 1 + 1 * z.val = z.val; rw [e21]; omega
  have E0 : (iblk2 V c 0 t : S5000x1.Idx → EReal) (ix2 p z) = (V c main_v57 : S100000x1.Idx → EReal) (ix2 r z) := by
    show V c main_v57 (((cfg2.win 0).blk t).view.emb (ix2 p z)) = _
    refine congrArg _ ?_
    funext a; apply Fin.ext
    match a with
    | ⟨0, _⟩ => show win2_0.index t (0 : Fin 2) * 5000 + 1 * p.val = r.val; rw [e00]; omega
    | ⟨1, _⟩ => show win2_0.index t (1 : Fin 2) * 1 + 1 * z.val = z.val; rw [e01]; omega
  have E1 : (iblk2 V c 1 t : S1x1.Idx → EReal) (ix2 0 0) = (V c main_v58 : S1x1.Idx → EReal) (ix2 0 0) := by
    show V c main_v58 (((cfg2.win 1).blk t).view.emb (ix2 0 0)) = _
    refine congrArg _ ?_
    funext a; apply Fin.ext
    match a with
    | ⟨0, _⟩ => show win2_1.index t (0 : Fin 2) * 1 + 1 * 0 = 0; rw [e10]
    | ⟨1, _⟩ => show win2_1.index t (1 : Fin 2) * 1 + 1 * 0 = 0; rw [e11]
  rw [E2, hG r z, E0, E1]

/-- An index of the output array is in the block of point t iff, on each axis, it lies in the block's range
    [index · size, index · size + size). -/
theorem mem_blk2 (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v59).slice (win2_2.rect t)).set ↔ _
  rw [View.set_slice_whole, Rect.mem_set_unit]
  exact Iff.rfl

/-- The 20 blocks of 5000 rows tile the 100000 rows: row ρ is in the block of point ⌊ρ / 5000⌋, which is written back. -/
theorem cover2 (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, htv⟩ : ∃ t : Fin cfg2.N, t.val = (i 0).val / 5000 :=
    ⟨⟨(i 0).val / 5000, lt_of_lt_of_eq (by omega : (i 0).val / 5000 < 20) N_2.symm⟩, rfl⟩
  obtain ⟨e00, e01, e10, e11, e20, e21⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e20]; omega
  | ⟨1, _⟩ => show win2_2.index t (1 : Fin 2) * 1 ≤ (i 1).val ∧ (i 1).val < win2_2.index t (1 : Fin 2) * 1 + 1; rw [e21]; omega

/-- After all 20 points the [100000,1] output array is G. -/
theorem array2 (c : Dev nD) (A : S100000x1.Idx → EReal) (B : S1x1.Idx → EReal)
    (hA : (V c main_v57 : S100000x1.Idx → EReal) = A) (hB : (V c main_v58 : S1x1.Idx → EReal) = B)
    (G : S100000x1.Idx → EReal)
    (hG : ∀ (r : Fin 100000) (z : Fin 1), G (ix2 r z) = Ideal.logistic (A (ix2 r z) + B (ix2 0 0))) :
    (dat2 (F := Ideal) V c).arrAt 2 cfg2.N = G :=
  (dat2 V c).arrAt_eq_of_cover 2 G (fun t _ => flushed2 V c A B hA hB G hG t) cover2

end Cert.KernelIdeal.Region

end
-- ==== Proof.RefIndex.lean ====
/-
  The reference's three dense stages read at an index, at the ideal values (extended reals).

  The reference is two graph-convolution layers on the host. Its dense steps — the product x·W1, the product
  relu(agg + b1)·W2, and the final 1 / (1 + exp(−(agg + b2))) — are read here at one entry each, in the form in which
  the kernel's three regions compute them: a sum of products over the contracted axis, and the logistic function.
  The aggregations between them (gathers and scatter-adds along the edges) are left as whole arrays.
-/
import proofs.«113892_j85177791415007_1_alg».proof.Proof.RefRead
import Idealize.ShloMosaic.Lib.ValueIdx
import Idealize.ShloMosaic.PureOps.Ideal.Laws

set_option maxRecDepth 16384

noncomputable section

namespace Cert.ReferenceIdeal.RefIndex

open Idealize.ShloMosaic Idealize.ShloMosaic.ValueIdx Cert.ReferenceIdeal Cert.ReferenceIdeal.Read

variable (x0 : (⟨S100000x256, .f32⟩ : BufTy).Contents (Elt Ideal)) (e : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-- The f32 word of 1.0 is the real number one. -/
theorem one_word : Ideal.ofBits .f32 0x3F800000#32 = 1 := by
  simp [Ideal.ofBits, Ideal.ieee, -EReal.coe_mul]; norm_num

/-- Entry (r, q) of x·W1: the sum over k of x(r, k)·W1(k, q). -/
theorem v30_at (r : Fin 100000) (q : Fin 128) :
    val_main_v30 (F := Ideal) x0 x2 (ix2 r q) = ∑ k : Fin 256, x0 (ix2 r k) * x2 (ix2 k q) := by
  rw [val_main_v30_apply]
  refine Finset.sum_congr rfl fun k _ => ?_
  have el : lidx_main_v30 (ix2 r q) k = ix2 r k := funext fun a => Fin.ext (by
    match a with
    | ⟨0, _⟩ => rfl
    | ⟨1, _⟩ => rfl)
  have er : ridx_main_v30 (ix2 r q) k = ix2 k q := funext fun a => Fin.ext (by
    match a with
    | ⟨0, _⟩ => rfl
    | ⟨1, _⟩ => rfl)
  rw [el, er]

/-- Entry (r, 0) of relu(agg1 + b1)·W2: the sum over k of max(agg1(r, k) + b1(k), 0)·W2(k, 0). -/
theorem v74_at (r : Fin 100000) (z : Fin 1) :
    val_main_v74 (F := Ideal) x0 e x2 x3 x4 (ix2 r z)
      = ∑ k : Fin 128, max (val_main_v43 (F := Ideal) x0 e x2 (ix2 r k) + x3 (ix1 k)) (Ideal.ofBits .f32 0x00000000#32) * x4 (ix2 k z) := by
  rw [val_main_v74_apply]
  refine Finset.sum_congr rfl fun k _ => ?_
  have el : lidx_main_v74 (ix2 r z) k = ix2 r k := funext fun a => Fin.ext (by
    match a with
    | ⟨0, _⟩ => rfl
    | ⟨1, _⟩ => rfl)
  have er : ridx_main_v74 (ix2 r z) k = ix2 k z := funext fun a => Fin.ext (by
    match a with
    | ⟨0, _⟩ => rfl
    | ⟨1, _⟩ => rfl)
  have e3 : idx_main_v44 (idx_main_v45 (ix2 r k)) = ix1 k := funext fun a => Fin.ext (by
    match a with
    | ⟨0, _⟩ => rfl)
  rw [el, er, val_main_v47_apply, val_main_v46_apply, val_main_v45_apply, val_main_v44_apply, val_main_call1_v0_apply,
    val_main_call1_cst_apply, e3]
  rfl

/-- Entry (r, 0) of the result: the logistic function of agg2(r, 0) + b2. -/
theorem v95_at (r : Fin 100000) (z : Fin 1) :
    val_main_v95 (F := Ideal) x0 e x2 x3 x4 x5 (ix2 r z)
      = Ideal.logistic (val_main_v86 (F := Ideal) x0 e x2 x3 x4 (ix2 r z) + x5 (ix1 0)) := by
  have e5 : idx_main_v87 (idx_main_v88 (ix2 r z)) = ix1 0 := funext fun a => Fin.ext (by
    match a with
    | ⟨0, _⟩ => rfl)
  rw [val_main_v95_apply, val_main_v94_apply, val_main_cst_21_apply, val_main_v93_apply, val_main_v92_apply,
    val_main_cst_20_apply, val_main_v91_apply, val_main_v90_apply, val_main_v89_apply, val_main_v88_apply,
    val_main_v87_apply, e5]
  simp only [Ideal.hostDivf_def, Ideal.addf_def, Ideal.hostUnary_exp_def, Ideal.hostNegf_def, Ideal.negf_def,
    Ideal.ofBits_def, one_word, Ideal.logistic]

end Cert.ReferenceIdeal.RefIndex

end
-- ==== Proof.KernelValue.lean ====
/-
  The value of the idealized kernel's result, as a whole array.

  The contents of the TensorCore's buffers at each boundary of @main (after each stretch of host operations, after
  each pipelined region) are followed from the launch memory to the return, at the buffers the next step reads:
  the message sources, destinations and weights (functions of the edge list alone) are carried unchanged through the
  regions; region 1 leaves x·W1; the next stretch aggregates it along the edges; region 2 leaves relu(agg1 + b1)·W2;
  the next stretch aggregates that; region 3 leaves the logistic function of agg2 + b2. At every step the buffer holds
  the reference's stage of the same meaning, so the result buffer ends at the reference's last stage,
  `val_main_v95` of the six argument arrays.
-/
import proofs.«113892_j85177791415007_1_alg».proof.Proof.Gen.KernelIdeal.Frame
import proofs.«113892_j85177791415007_1_alg».proof.Proof.HostStretch
import proofs.«113892_j85177791415007_1_alg».proof.Proof.Regions
import proofs.«113892_j85177791415007_1_alg».proof.Proof.RefIndex

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.ReferenceIdeal.Read

/-- A buffer that no operation of a host stretch writes holds after the stretch what it held before: the stretch's
    operations' result buffers, each compared with the buffer in question. -/
macro "keep_ref" : tactic =>
  `(tactic| (refine StableHlo.after_of_forall_not_mem _ _ (List.forall_iff_forall_mem.mp ?_)
             simp only [hostOps0, hostOps0_1, hostOps0_2, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-! ## The argument arrays, as the arrays the reference's stages take -/

abbrev a0 : (⟨Cert.ReferenceIdeal.S100000x256, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S256x128, .f32⟩ : BufTy).Contents (Elt Ideal) := m ((c : Thread nD τ).loc main_arg2)
abbrev a3 : (⟨Cert.ReferenceIdeal.S128, .f32⟩ : BufTy).Contents (Elt Ideal) := m ((c : Thread nD τ).loc main_arg3)
abbrev a4 : (⟨Cert.ReferenceIdeal.S128x1, .f32⟩ : BufTy).Contents (Elt Ideal) := m ((c : Thread nD τ).loc main_arg4)
abbrev a5 : (⟨Cert.ReferenceIdeal.S1, .f32⟩ : BufTy).Contents (Elt Ideal) := m ((c : Thread nD τ).loc main_arg5)

/-! ## Re-laid biases read at an index -/

/-- A vector re-laid as one row: the row's entry (0, k) is the vector's entry k. -/
theorem row_cast (x : FVec Ideal S128 .f32) (k : Fin 128) :
    shapeCast S1x128 x shapeCasts_S128_S1x128 (ix2 0 k) = x (ix1 k) := by
  refine (shapeCast_addUnit_apply ![128] x shapeCasts_S128_S1x128 (ix2 0 k)).trans (congrArg x ?_)
  funext a
  match a with
  | ⟨0, _⟩ => rfl

/-- A one-entry vector re-laid as a one-by-one array: the same entry. -/
theorem one_cast (x : FVec Ideal S1 .f32) :
    shapeCast S1x1 x shapeCasts_S1_S1x1 (ix2 0 0) = x (ix1 0) := by
  refine (shapeCast_addUnit_apply ![1] x shapeCasts_S1_S1x1 (ix2 0 0)).trans (congrArg x ?_)
  funext a
  match a with
  | ⟨0, _⟩ => rfl

/-! ## Before the first region -/

theorem w1_v5 : W1 m ρ c (Proc.devRef .tc main_v5) = val_main_v5 (F := Ideal) (a1 m c) := HostValue.a_v5 (W0 m ρ c)
theorem w1_v6 : W1 m ρ c (Proc.devRef .tc main_v6) = val_main_v6 (F := Ideal) (a1 m c) := HostValue.a_v6 (W0 m ρ c)
theorem w1_v12 : W1 m ρ c (Proc.devRef .tc main_v12) = val_main_v12 (F := Ideal) (a1 m c) := HostValue.a_v12 (W0 m ρ c)
theorem w1_v13 : W1 m ρ c (Proc.devRef .tc main_v13) = val_main_v13 (F := Ideal) (a1 m c) := HostValue.a_v13 (W0 m ρ c)
theorem w1_cst2 : W1 m ρ c (Proc.devRef .tc main_cst_2) = val_main_cst_2 (F := Ideal) := HostValue.a_cst2 (W0 m ρ c)

theorem w2_v14 : W2 m ρ c (Proc.devRef .tc main_v14) = val_main_v14 (F := Ideal) (a1 m c) :=
  HostValue.b_v14 (W1 m ρ c) (a1 m c) (w1_v12 m ρ c) (w1_v13 m ρ c) (w1_cst2 m ρ c)
theorem w2_v5 : W2 m ρ c (Proc.devRef .tc main_v5) = val_main_v5 (F := Ideal) (a1 m c) :=
  (show W2 m ρ c (Proc.devRef .tc main_v5) = W1 m ρ c (Proc.devRef .tc main_v5) by keep_ref).trans (w1_v5 m ρ c)
theorem w2_v6 : W2 m ρ c (Proc.devRef .tc main_v6) = val_main_v6 (F := Ideal) (a1 m c) :=
  (show W2 m ρ c (Proc.devRef .tc main_v6) = W1 m ρ c (Proc.devRef .tc main_v6) by keep_ref).trans (w1_v6 m ρ c)

theorem w3_v29 : W3 m ρ c (Proc.devRef .tc main_v29) = val_main_v29 (F := Ideal) (a1 m c) :=
  HostValue.c_v29 (W2 m ρ c) (a1 m c) (w2_v5 m ρ c) (w2_v6 m ρ c) (w2_v14 m ρ c)
theorem w3_v5 : W3 m ρ c (Proc.devRef .tc main_v5) = val_main_v5 (F := Ideal) (a1 m c) :=
  (show W3 m ρ c (Proc.devRef .tc main_v5) = W2 m ρ c (Proc.devRef .tc main_v5) by keep_ref).trans (w2_v5 m ρ c)
theorem w3_v6 : W3 m ρ c (Proc.devRef .tc main_v6) = val_main_v6 (F := Ideal) (a1 m c) :=
  (show W3 m ρ c (Proc.devRef .tc main_v6) = W2 m ρ c (Proc.devRef .tc main_v6) by keep_ref).trans (w2_v6 m ρ c)

/-- Argument 0 is written by no host operation before the first region. -/
theorem w3_arg0 : W3 m ρ c (Proc.devRef .tc main_arg0) = a0 m c :=
  calc W3 m ρ c (Proc.devRef .tc main_arg0) = W2 m ρ c (Proc.devRef .tc main_arg0) := by keep_ref
    _ = W1 m ρ c (Proc.devRef .tc main_arg0) := by keep_ref
    _ = W0 m ρ c (Proc.devRef .tc main_arg0) := by keep_ref
    _ = a0 m c := rfl
/-- Argument 2 is written by no host operation before the first region. -/
theorem w3_arg2 : W3 m ρ c (Proc.devRef .tc main_arg2) = a2 m c :=
  calc W3 m ρ c (Proc.devRef .tc main_arg2) = W2 m ρ c (Proc.devRef .tc main_arg2) := by keep_ref
    _ = W1 m ρ c (Proc.devRef .tc main_arg2) := by keep_ref
    _ = W0 m ρ c (Proc.devRef .tc main_arg2) := by keep_ref
    _ = a2 m c := rfl
/-- Argument 3 is written by no host operation before the first region. -/
theorem w3_arg3 : W3 m ρ c (Proc.devRef .tc main_arg3) = a3 m c :=
  calc W3 m ρ c (Proc.devRef .tc main_arg3) = W2 m ρ c (Proc.devRef .tc main_arg3) := by keep_ref
    _ = W1 m ρ c (Proc.devRef .tc main_arg3) := by keep_ref
    _ = W0 m ρ c (Proc.devRef .tc main_arg3) := by keep_ref
    _ = a3 m c := rfl
/-- Argument 4 is written by no host operation before the first region. -/
theorem w3_arg4 : W3 m ρ c (Proc.devRef .tc main_arg4) = a4 m c :=
  calc W3 m ρ c (Proc.devRef .tc main_arg4) = W2 m ρ c (Proc.devRef .tc main_arg4) := by keep_ref
    _ = W1 m ρ c (Proc.devRef .tc main_arg4) := by keep_ref
    _ = W0 m ρ c (Proc.devRef .tc main_arg4) := by keep_ref
    _ = a4 m c := rfl
/-- Argument 5 is written by no host operation before the first region. -/
theorem w3_arg5 : W3 m ρ c (Proc.devRef .tc main_arg5) = a5 m c :=
  calc W3 m ρ c (Proc.devRef .tc main_arg5) = W2 m ρ c (Proc.devRef .tc main_arg5) := by keep_ref
    _ = W1 m ρ c (Proc.devRef .tc main_arg5) := by keep_ref
    _ = W0 m ρ c (Proc.devRef .tc main_arg5) := by keep_ref
    _ = a5 m c := rfl

/-! ## The first region: x·W1 -/

theorem w4_v30 : W4 m ρ c (Proc.devRef .tc main_v30) = val_main_v30 (F := Ideal) (a0 m c) (a2 m c) :=
  (W4_arr m ρ c 2).trans (Region.array0 (V3 m ρ) c (a0 m c) (a2 m c) (w3_arg0 m ρ c) (w3_arg2 m ρ c) _
    (Cert.ReferenceIdeal.RefIndex.v30_at (a0 m c) (a2 m c)))

theorem w4_v29 : W4 m ρ c (Proc.devRef .tc main_v29) = val_main_v29 (F := Ideal) (a1 m c) := (W4_of_ne m ρ c main_v29 (by decide)).trans (w3_v29 m ρ c)
theorem w4_v5 : W4 m ρ c (Proc.devRef .tc main_v5) = val_main_v5 (F := Ideal) (a1 m c) := (W4_of_ne m ρ c main_v5 (by decide)).trans (w3_v5 m ρ c)
theorem w4_v6 : W4 m ρ c (Proc.devRef .tc main_v6) = val_main_v6 (F := Ideal) (a1 m c) := (W4_of_ne m ρ c main_v6 (by decide)).trans (w3_v6 m ρ c)
theorem w4_arg3 : W4 m ρ c (Proc.devRef .tc main_arg3) = a3 m c := (W4_of_ne m ρ c main_arg3 (by decide)).trans (w3_arg3 m ρ c)
theorem w4_arg4 : W4 m ρ c (Proc.devRef .tc main_arg4) = a4 m c := (W4_of_ne m ρ c main_arg4 (by decide)).trans (w3_arg4 m ρ c)
theorem w4_arg5 : W4 m ρ c (Proc.devRef .tc main_arg5) = a5 m c := (W4_of_ne m ρ c main_arg5 (by decide)).trans (w3_arg5 m ρ c)

/-! ## Between the first and the second region -/

theorem w5_v43 : W5 m ρ c (Proc.devRef .tc main_v43) = val_main_v43 (F := Ideal) (a0 m c) (a1 m c) (a2 m c) :=
  HostValue.d_v43 (W4 m ρ c) (a1 m c) (a0 m c) (a2 m c) (w4_v30 m ρ c) (w4_v29 m ρ c) (w4_v5 m ρ c) (w4_v6 m ρ c)
theorem w5_v44 : W5 m ρ c (Proc.devRef .tc main_v44) = shapeCast S1x128 (a3 m c) shapeCasts_S128_S1x128 :=
  (HostValue.d_v44 (W4 m ρ c)).trans (congrArg (fun x => shapeCast S1x128 x shapeCasts_S128_S1x128) (w4_arg3 m ρ c))
theorem w5_arg4 : W5 m ρ c (Proc.devRef .tc main_arg4) = a4 m c :=
  (show W5 m ρ c (Proc.devRef .tc main_arg4) = W4 m ρ c (Proc.devRef .tc main_arg4) by keep_ref).trans (w4_arg4 m ρ c)
theorem w5_arg5 : W5 m ρ c (Proc.devRef .tc main_arg5) = a5 m c :=
  (show W5 m ρ c (Proc.devRef .tc main_arg5) = W4 m ρ c (Proc.devRef .tc main_arg5) by keep_ref).trans (w4_arg5 m ρ c)
theorem w5_v29 : W5 m ρ c (Proc.devRef .tc main_v29) = val_main_v29 (F := Ideal) (a1 m c) :=
  (show W5 m ρ c (Proc.devRef .tc main_v29) = W4 m ρ c (Proc.devRef .tc main_v29) by keep_ref).trans (w4_v29 m ρ c)
theorem w5_v5 : W5 m ρ c (Proc.devRef .tc main_v5) = val_main_v5 (F := Ideal) (a1 m c) :=
  (show W5 m ρ c (Proc.devRef .tc main_v5) = W4 m ρ c (Proc.devRef .tc main_v5) by keep_ref).trans (w4_v5 m ρ c)
theorem w5_v6 : W5 m ρ c (Proc.devRef .tc main_v6) = val_main_v6 (F := Ideal) (a1 m c) :=
  (show W5 m ρ c (Proc.devRef .tc main_v6) = W4 m ρ c (Proc.devRef .tc main_v6) by keep_ref).trans (w4_v6 m ρ c)

/-! ## The second region: relu(agg1 + b1)·W2 -/

theorem w6_v45 : W6 m ρ c (Proc.devRef .tc main_v45) = val_main_v74 (F := Ideal) (a0 m c) (a1 m c) (a2 m c) (a3 m c) (a4 m c) :=
  (W6_arr m ρ c 3).trans (Region.array1 (V5 m ρ) c _ _ _ (w5_v43 m ρ c) (w5_v44 m ρ c) (w5_arg4 m ρ c) _
    (fun r z => (Cert.ReferenceIdeal.RefIndex.v74_at (a0 m c) (a1 m c) (a2 m c) (a3 m c) (a4 m c) r z).trans
      (Finset.sum_congr rfl fun k _ => by rw [row_cast])))

theorem w6_v29 : W6 m ρ c (Proc.devRef .tc main_v29) = val_main_v29 (F := Ideal) (a1 m c) := (W6_of_ne m ρ c main_v29 (by decide)).trans (w5_v29 m ρ c)
theorem w6_v5 : W6 m ρ c (Proc.devRef .tc main_v5) = val_main_v5 (F := Ideal) (a1 m c) := (W6_of_ne m ρ c main_v5 (by decide)).trans (w5_v5 m ρ c)
theorem w6_v6 : W6 m ρ c (Proc.devRef .tc main_v6) = val_main_v6 (F := Ideal) (a1 m c) := (W6_of_ne m ρ c main_v6 (by decide)).trans (w5_v6 m ρ c)
theorem w6_arg5 : W6 m ρ c (Proc.devRef .tc main_arg5) = a5 m c := (W6_of_ne m ρ c main_arg5 (by decide)).trans (w5_arg5 m ρ c)

/-! ## Between the second and the third region -/

theorem w7_v57 : W7 m ρ c (Proc.devRef .tc main_v57) = val_main_v86 (F := Ideal) (a0 m c) (a1 m c) (a2 m c) (a3 m c) (a4 m c) :=
  HostValue.e_v57 (W6 m ρ c) (a1 m c) (a0 m c) (a2 m c) (a3 m c) (a4 m c) (w6_v45 m ρ c) (w6_v29 m ρ c) (w6_v5 m ρ c) (w6_v6 m ρ c)
theorem w7_v58 : W7 m ρ c (Proc.devRef .tc main_v58) = shapeCast S1x1 (a5 m c) shapeCasts_S1_S1x1 :=
  (HostValue.e_v58 (W6 m ρ c)).trans (congrArg (fun x => shapeCast S1x1 x shapeCasts_S1_S1x1) (w6_arg5 m ρ c))

/-! ## The third region, and the result -/

/-- When @main returns, the result buffer holds the reference's last stage of the six argument arrays. -/
theorem result : W8 m ρ c (Proc.devRef .tc main_v59)
    = val_main_v95 (F := Ideal) (a0 m c) (a1 m c) (a2 m c) (a3 m c) (a4 m c) (a5 m c) :=
  (W8_arr m ρ c 2).trans (Region.array2 (V7 m ρ) c _ _ (w7_v57 m ρ c) (w7_v58 m ρ c) _
    (fun r z => (Cert.ReferenceIdeal.RefIndex.v95_at (a0 m c) (a1 m c) (a2 m c) (a3 m c) (a4 m c) (a5 m c) r z).trans
      (by rw [one_cast])))

end Cert.KernelIdeal.KernelValue

end
-- ==== Proof.lean ====
/-
  The certificate of a two-layer graph convolution: `Cert.Claim` for the kernel, its idealization and the reference.

  Both programs compute, for node features x, an edge list e and weights W1, b1, W2, b2,
      sigmoid( Â · relu( Â · (x·W1) + b1 ) · W2 + b2 ),
  where Â aggregates along the edges and one self loop per node with the symmetric weights
  d(src)·d(dst), d = 1/sqrt(in-degree) where the degree is positive and 0 elsewhere. The reference does all of it
  on the host. The kernel does the three dense steps — x·W1, relu(agg1 + b1)·W2 and the logistic function of
  agg2 + b2 — in three pipelined regions over blocks of 5000 rows, and the gathers and scatter-adds of Â on the host
  between them, computing the weights once.

  At the ideal values (extended reals; a change of float format is the identity) the two agree operation by
  operation: a block's matrix product into a zero accumulator is the host's contraction restricted to the block's
  rows, the row broadcast of a re-laid bias is the host's broadcast of the bias, the kernel's logistic operation is
  1 / (1 + exp(−·)), and every host operation of the kernel is the reference's operation of the same operands. No
  step uses a law that fails at the infinities, so the precondition (finite inputs) is never opened.

  The frames of the two kernel programs are the generated ones; the reference's frame is its run with the result
  dropped; the idealization rewrote no operation, so `preserves` is trivial; `algebraic` pairs the kernel's run
  read at its result buffer (KernelRun, KernelValue) with the reference's run.
-/
import proofs.«113892_j85177791415007_1_alg».proof.Defs
import proofs.«113892_j85177791415007_1_alg».proof.Proof.Gen.Kernel
import proofs.«113892_j85177791415007_1_alg».proof.Proof.Gen.Kernel.Skeleton
import proofs.«113892_j85177791415007_1_alg».proof.Proof.Gen.Kernel.Launch
import proofs.«113892_j85177791415007_1_alg».proof.Proof.Gen.Kernel.Points
import proofs.«113892_j85177791415007_1_alg».proof.Proof.Gen.Kernel.Frame
import proofs.«113892_j85177791415007_1_alg».proof.Proof.Gen.KernelIdeal
import proofs.«113892_j85177791415007_1_alg».proof.Proof.Gen.KernelIdeal.Skeleton
import proofs.«113892_j85177791415007_1_alg».proof.Proof.Gen.KernelIdeal.Launch
import proofs.«113892_j85177791415007_1_alg».proof.Proof.Gen.KernelIdeal.Points
import proofs.«113892_j85177791415007_1_alg».proof.Proof.Gen.KernelIdeal.Frame
import proofs.«113892_j85177791415007_1_alg».proof.Proof.Gen.ReferenceIdeal
import proofs.«113892_j85177791415007_1_alg».proof.Proof.Gen.Pre_finite_inputs
import proofs.«113892_j85177791415007_1_alg».proof.Proof.RefRun
import proofs.«113892_j85177791415007_1_alg».proof.Proof.RefRead
import proofs.«113892_j85177791415007_1_alg».proof.Proof.KernelRun
import proofs.«113892_j85177791415007_1_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the reference's last stage of those
    arguments in their result buffers. -/
theorem algebraic : Cert.algebraic_KernelIdeal_ReferenceIdeal := by
  intro m ρ m' ρ' _ hagree
  refine ⟨fun c => Cert.ReferenceIdeal.Read.val_main_v95 (F := Ideal)
    (Cert.KernelIdeal.KernelValue.a0 m c) (Cert.KernelIdeal.KernelValue.a1 m c) (Cert.KernelIdeal.KernelValue.a2 m c)
    (Cert.KernelIdeal.KernelValue.a3 m c) (Cert.KernelIdeal.KernelValue.a4 m c) (Cert.KernelIdeal.KernelValue.a5 m c), ?_, ?_⟩
  · exact (θ_run Cert.KernelIdeal.defs _ _).mono
      (fun r h c => ⟨(h c).1.trans (Cert.KernelIdeal.KernelValue.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
